-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x196x768 : Shape := ⟨3, ![64, 196, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S1 : Shape := ⟨1, ![1]⟩
abbrev S_ : Shape := ⟨0, ![]⟩

class Facts : Prop where
  bcast_S_S64x196x768 : S_.BroadcastsInDim S64x196x768 (![] : Fin 0 → Fin S64x196x768.rank)
  reducesTo_S64x196x768_S_d0_1_2 : S64x196x768.ReducesTo [0, 1, 2] S_
  h_S_ : 0 < S_.numel
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg3 : FVec F S768x3072 .f32) (main_v32 : IVec S_ 1) (main_v33 : FVec F S3072x768 .f32) : IVec S_ 1 :=
  let main_cst_12 : FVec F S_ .f32 := constant S_ .f32 0xFF800000#32
  let main_v34 : FVec F S_ .f32 := (fun x v => Host.reduce FloatOps.maximumf x v reducesTo_S3072x768_S_d0_1 h_S_) main_v33 main_cst_12
  let main_cst_13 : FVec F S_ .f32 := constant S_ .f32 0x00000000#32
  let main_v35 : IVec S_ 1 := cmpf .une main_v34 main_cst_13
  let main_v36 : IVec S_ 1 := andi main_v32 main_v35
  let main_v37 : FVec F S768x3072 .f32 := Host.absf main_arg3
  let main_cst_14 : FVec F S_ .f32 := constant S_ .f32 0xFF800000#32
  let main_v38 : FVec F S_ .f32 := (fun x v => Host.reduce FloatOps.maximumf x v reducesTo_S768x3072_S_d0_1 h_S_) main_v37 main_cst_14
  let main_cst_15 : FVec F S_ .f32 := constant S_ .f32 0x00000000#32
  let main_v39 : IVec S_ 1 := cmpf .une main_v38 main_cst_15
  let main_v40 : IVec S_ 1 := andi main_v36 main_v39
  main_v40

def fn_part1 {F : FTy → Type} [FloatOps F] (main_arg1 : FVec F S3072x768 .f32) (main_arg3 : FVec F S768x3072 .f32) (main_arg4 : FVec F S768 .f32) (main_arg5 : FVec F S1 .f32) (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_cst_10 : FVec F S_ .f32 := constant S_ .f32 0x00000000#32
  let main_v29 : FVec F S1 .f32 := broadcastInDim S1 ![] bcast_S_S1 main_cst_10
  let main_v30 : IVec S1 1 := cmpf .une main_arg5 main_v29
  let main_c_11 : IVec S_ 1 := constantI S_ 1 1#1
  let main_v31 : IVec S_ 1 := (fun x v => Host.reduce IntOp.andi x v reducesTo_S1_S_d0 h_S_) main_v30 main_c_11
  let main_v32 : IVec S_ 1 := andi main_v28 main_v31
  let main_v33 : FVec F S3072x768 .f32 := Host.absf main_arg1
  fn_part2 (F := F) main_arg3 main_v32 main_v33

def fn {F : FTy → Type} [FloatOps F] (main_arg0 : FVec F S64x196x768 .f32) (main_arg1 : FVec F S3072x768 .f32) (main_arg2 : FVec F S3072 .f32) (main_arg3 : FVec F S768x3072 .f32) (main_arg4 : FVec F S768 .f32) (main_arg5 : FVec F S1 .f32) : IVec S_ 1 :=
  let main_v0 : FVec F S64x196x768 .f32 := Host.absf main_arg0
  let main_cst : FVec F S_ .f32 := constant S_ .f32 0x7F800000#32
  let main_v1 : FVec F S64x196x768 .f32 := broadcastInDim S64x196x768 ![] bcast_S_S64x196x768 main_cst
  let main_v2 : IVec S64x196x768 1 := cmpf .olt main_v0 main_v1
  let main_c : IVec S_ 1 := constantI S_ 1 1#1
  let main_v3 : IVec S_ 1 := (fun x v => Host.reduce IntOp.andi x v reducesTo_S64x196x768_S_d0_1_2 h_S_) main_v2 main_c
  let main_v4 : FVec F S3072x768 .f32 := Host.absf main_arg1
  let main_cst_0 : FVec F S_ .f32 := constant S_ .f32 0x7F800000#32
  let main_v5 : FVec F S3072x768 .f32 := broadcastInDim S3072x768 ![] bcast_S_S3072x768 main_cst_0
  let main_v6 : IVec S3072x768 1 := cmpf .olt main_v4 main_v5
  let main_c_1 : IVec S_ 1 := constantI S_ 1 1#1
  let main_v7 : IVec S_ 1 := (fun x v => Host.reduce IntOp.andi x v reducesTo_S3072x768_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_arg1 main_arg3 main_arg4 main_arg5 main_v13 main_v16
-- ==== Kernel.lean ====
abbrev S64x196x768 : Shape := ⟨3, ![64, 196, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S1 : Shape := ⟨1, ![1]⟩
abbrev S_ : Shape := ⟨0, ![]⟩
abbrev S12544x768 : Shape := ⟨2, ![12544, 768]⟩
abbrev S1x3072 : Shape := ⟨2, ![1, 3072]⟩
abbrev S1x768 : Shape := ⟨2, ![1, 768]⟩
abbrev S784x768 : Shape := ⟨2, ![784, 768]⟩
abbrev S784x3072 : Shape := ⟨2, ![784, 3072]⟩

abbrev nBuf : Space → Nat
  | .hbm => 73
  | .vmem => 8
  | .smem => 0
  | _ => 0

abbrev bufTy : (tb : Table) → Fin (tcTables nBuf tb) → BufTy
  | .hbm, ⟨0, _⟩ => ⟨S64x196x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S1, .f32⟩
  | .hbm, ⟨6, _⟩ => ⟨S_, .f32⟩
  | .hbm, ⟨7, _⟩ => ⟨S3072x768, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S3072x768, .f32⟩
  | .hbm, ⟨13, _⟩ => ⟨S3072x768, .f32⟩
  | .hbm, ⟨14, _⟩ => ⟨S3072x768, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S3072x768, .f32⟩
  | .hbm, ⟨19, _⟩ => ⟨S3072x768, .f32⟩
  | .hbm, ⟨20, _⟩ => ⟨S_, .f32⟩
  | .hbm, ⟨21, _⟩ => ⟨S3072x768, .f32⟩
  | .hbm, ⟨22, _⟩ => ⟨S3072x768, .f32⟩
  | .hbm, ⟨23, _⟩ => ⟨S_, .f32⟩
  | .hbm, ⟨24, _⟩ => ⟨S3072, .f32⟩
  | .hbm, ⟨25, _⟩ => ⟨S3072, .f32⟩
  | .hbm, ⟨26, _⟩ => ⟨S3072, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S3072, .f32⟩
  | .hbm, ⟨31, _⟩ => ⟨S3072, .f32⟩
  | .hbm, ⟨32, _⟩ => ⟨S_, .f32⟩
  | .hbm, ⟨33, _⟩ => ⟨S3072, .f32⟩
  | .hbm, ⟨34, _⟩ => ⟨S3072, .f32⟩
  | .hbm, ⟨35, _⟩ => ⟨S_, .f32⟩
  | .hbm, ⟨36, _⟩ => ⟨S768x3072, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S768x3072, .f32⟩
  | .hbm, ⟨42, _⟩ => ⟨S768x3072, .f32⟩
  | .hbm, ⟨43, _⟩ => ⟨S768x3072, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S768x3072, .f32⟩
  | .hbm, ⟨48, _⟩ => ⟨S768x3072, .f32⟩
  | .hbm, ⟨49, _⟩ => ⟨S_, .f32⟩
  | .hbm, ⟨50, _⟩ => ⟨S768x3072, .f32⟩
  | .hbm, ⟨51, _⟩ => ⟨S768x3072, .f32⟩
  | .hbm, ⟨52, _⟩ => ⟨S_, .f32⟩
  | .hbm, ⟨53, _⟩ => ⟨S768, .f32⟩
  | .hbm, ⟨54, _⟩ => ⟨S768, .f32⟩
  | .hbm, ⟨55, _⟩ => ⟨S768, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S768, .f32⟩
  | .hbm, ⟨60, _⟩ => ⟨S768, .f32⟩
  | .hbm, ⟨61, _⟩ => ⟨S_, .f32⟩
  | .hbm, ⟨62, _⟩ => ⟨S768, .f32⟩
  | .hbm, ⟨63, _⟩ => ⟨S768, .f32⟩
  | .hbm, ⟨64, _⟩ => ⟨S_, .f32⟩
  | .hbm, ⟨65, _⟩ => ⟨S12544x768, .f32⟩
  | .hbm, ⟨66, _⟩ => ⟨S12544x768, .bf16⟩
  | .hbm, ⟨67, _⟩ => ⟨S3072x768, .bf16⟩
  | .hbm, ⟨68, _⟩ => ⟨S768x3072, .bf16⟩
  | .hbm, ⟨69, _⟩ => ⟨S1x3072, .f32⟩
  | .hbm, ⟨70, _⟩ => ⟨S1x768, .f32⟩
  | .hbm, ⟨71, _⟩ => ⟨S12544x768, .f32⟩
  | .hbm, ⟨72, _⟩ => ⟨S64x196x768, .f32⟩
  | .local _ .vmem, ⟨0, _⟩ => ⟨S784x768, .bf16⟩
  | .local _ .vmem, ⟨1, _⟩ => ⟨S784x768, .bf16⟩
  | .local _ .vmem, ⟨2, _⟩ => ⟨S3072x768, .bf16⟩
  | .local _ .vmem, ⟨3, _⟩ => ⟨S1x3072, .f32⟩
  | .local _ .vmem, ⟨4, _⟩ => ⟨S768x3072, .bf16⟩
  | .local _ .vmem, ⟨5, _⟩ => ⟨S1x768, .f32⟩
  | .local _ .vmem, ⟨6, _⟩ => ⟨S784x768, .f32⟩
  | .local _ .vmem, ⟨7, _⟩ => ⟨S784x768, .f32⟩
  | _, _ => ⟨S64x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_cst_4 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_cst_6 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_cst_8 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_9 : Ref sig .tc := ⟨.hbm, 56, rfl⟩
abbrev main_cst_10 : Ref sig .tc := ⟨.hbm, 57, rfl⟩
abbrev main_call7_v0 : Ref sig .tc := ⟨.hbm, 58, rfl⟩
abbrev main_call7_v1 : Ref sig .tc := ⟨.hbm, 59, rfl⟩
abbrev main_call7_v2 : Ref sig .tc := ⟨.hbm, 60, rfl⟩
abbrev main_call7_v3 : Ref sig .tc := ⟨.hbm, 61, rfl⟩
abbrev main_call7_v4 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S784x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S784x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1_S_ : S1.ShapeCasts S_
  reducesTo_S3072x768_S_d0_1 : S3072x768.ReducesTo [0, 1] S_
  h_S_ : 0 < S_.numel
  bcast_S_S3072x768 : S_.BroadcastsInDim S3072x768 (![] : Fin 0 → Fin S3072x768.rank)
  bcast_S_S3072 : S_.BroadcastsInDim S3072 (![] : Fin 0 → Fin S3072.rank)
  reducesTo_S768x3072_S_d0_1 : S768x3072.ReducesTo [0, 1] S_
  bcast_S_S768x3072 : S_.BroadcastsInDim S768x3072 (![] : Fin 0 → Fin S768x3072.rank)
  bcast_S_S768 : S_.BroadcastsInDim S768 (![] : Fin 0 → Fin S768.rank)
  shapeCasts_S64x196x768_S12544x768 : S64x196x768.ShapeCasts S12544x768
  bitsLt_bf16_f32 : FTy.bits .bf16 < FTy.bits .f32
  shapeCasts_S3072_S1x3072 : S3072.ShapeCasts S1x3072
  shapeCasts_S768_S1x768 : S768.ShapeCasts S1x768
  inb_S784x768_S784x768_0_0 : ∀ a, (![0, 0] : Fin 2 → Nat) a + S784x768.size a ≤ S784x768.size a
  h_S784x768 : 0 < S784x768.numel
  shapeCasts_S784x768_S784x768 : S784x768.ShapeCasts S784x768
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S784x3072 : S1x3072.Broadcasts S784x3072
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S784x768 : S1x768.Broadcasts S784x768
  shapeCasts_S12544x768_S64x196x768 : S12544x768.ShapeCasts S64x196x768
  dot_S784x768_S3072x768_S784x3072_1_1_0_0_n_n_wf : DotDims.WF S784x768 S3072x768 S784x3072 [1] [1] [0] [0] [] []
  dot_S784x3072_S768x3072_S784x768_1_1_0_0_n_n_wf : DotDims.WF S784x3072 S768x3072 S784x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x768.size a ≤ S12544x768.size a
  hwx0_0 : ∀ i : grid0.Coords, EltTy.bits .bf16 = 32 ∨ (Rect.block (s := S12544x768) S784x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x768.size a ≤ S3072x768.size a
  hwx0_1 : ∀ i : grid0.Coords, EltTy.bits .bf16 = 32 ∨ (Rect.block (s := S3072x768) S3072x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x3072.size a ≤ S768x3072.size a
  hwx0_3 : ∀ i : grid0.Coords, EltTy.bits .bf16 = 32 ∨ (Rect.block (s := S768x3072) S768x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S784x768.size a ≤ S12544x768.size a
  hwx0_5 : ∀ i : grid0.Coords, EltTy.bits .f32 = 32 ∨ (Rect.block (s := S12544x768) S784x768.size (cc0_transform_5 i) (hinb0_5 i)).WholeWords (EltTy.packing .f32)

variable [Facts₀]

def dot_S784x768_S3072x768_S784x3072_1_1_0_0_n_n : DotDims S784x768 S3072x768 S784x3072 where
  lhsContracting := [1]
  rhsContracting := [1]
  lhsNonContracting := [0]
  rhsNonContracting := [0]
  lhsBatch := []
  rhsBatch := []
  wf := dot_S784x768_S3072x768_S784x3072_1_1_0_0_n_n_wf
def dot_S784x3072_S768x3072_S784x768_1_1_0_0_n_n : DotDims S784x3072 S768x3072 S784x768 where
  lhsContracting := [1]
  rhsContracting := [1]
  lhsNonContracting := [0]
  rhsNonContracting := [0]
  lhsBatch := []
  rhsBatch := []
  wf := dot_S784x3072_S768x3072_S784x768_1_1_0_0_n_n_wf

abbrev win0_0 : Pipeline.Window sig grid0 :=
  Pipeline.Window.ofSpec (Memref.whole main_v28) S784x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S3072x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S768x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S784x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x196x768 : Shape := ⟨3, ![64, 196, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S1 : Shape := ⟨1, ![1]⟩
abbrev S_ : Shape := ⟨0, ![]⟩
abbrev S64x196x3072 : Shape := ⟨3, ![64, 196, 3072]⟩
abbrev S1x1x3072 : Shape := ⟨3, ![1, 1, 3072]⟩
abbrev S1x1x768 : Shape := ⟨3, ![1, 1, 768]⟩

abbrev nBuf : Space → Nat
  | .hbm => 84
  | .vmem => 0
  | .smem => 0
  | _ => 0

abbrev bufTy : (tb : Table) → Fin (tcTables nBuf tb) → BufTy
  | .hbm, ⟨0, _⟩ => ⟨S64x196x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S1, .f32⟩
  | .hbm, ⟨6, _⟩ => ⟨S_, .f32⟩
  | .hbm, ⟨7, _⟩ => ⟨S3072x768, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S3072x768, .f32⟩
  | .hbm, ⟨13, _⟩ => ⟨S3072x768, .f32⟩
  | .hbm, ⟨14, _⟩ => ⟨S3072x768, .f32⟩
  | .hbm, ⟨15, _⟩ => ⟨S3072x768, .f32⟩
  | .hbm, ⟨16, _⟩ => ⟨S3072x768, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S3072x768, .f32⟩
  | .hbm, ⟨21, _⟩ => ⟨S3072x768, .f32⟩
  | .hbm, ⟨22, _⟩ => ⟨S_, .f32⟩
  | .hbm, ⟨23, _⟩ => ⟨S3072x768, .f32⟩
  | .hbm, ⟨24, _⟩ => ⟨S3072x768, .f32⟩
  | .hbm, ⟨25, _⟩ => ⟨S_, .f32⟩
  | .hbm, ⟨26, _⟩ => ⟨S3072, .f32⟩
  | .hbm, ⟨27, _⟩ => ⟨S3072, .f32⟩
  | .hbm, ⟨28, _⟩ => ⟨S3072, .f32⟩
  | .hbm, ⟨29, _⟩ => ⟨S3072, .f32⟩
  | .hbm, ⟨30, _⟩ => ⟨S3072, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S3072, .f32⟩
  | .hbm, ⟨35, _⟩ => ⟨S3072, .f32⟩
  | .hbm, ⟨36, _⟩ => ⟨S_, .f32⟩
  | .hbm, ⟨37, _⟩ => ⟨S3072, .f32⟩
  | .hbm, ⟨38, _⟩ => ⟨S3072, .f32⟩
  | .hbm, ⟨39, _⟩ => ⟨S64x196x3072, .f32⟩
  | .hbm, ⟨40, _⟩ => ⟨S1x1x3072, .f32⟩
  | .hbm, ⟨41, _⟩ => ⟨S64x196x3072, .f32⟩
  | .hbm, ⟨42, _⟩ => ⟨S64x196x3072, .f32⟩
  | .hbm, ⟨43, _⟩ => ⟨S_, .f32⟩
  | .hbm, ⟨44, _⟩ => ⟨S768x3072, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S768x3072, .f32⟩
  | .hbm, ⟨50, _⟩ => ⟨S768x3072, .f32⟩
  | .hbm, ⟨51, _⟩ => ⟨S768x3072, .f32⟩
  | .hbm, ⟨52, _⟩ => ⟨S768x3072, .f32⟩
  | .hbm, ⟨53, _⟩ => ⟨S768x3072, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S768x3072, .f32⟩
  | .hbm, ⟨58, _⟩ => ⟨S768x3072, .f32⟩
  | .hbm, ⟨59, _⟩ => ⟨S_, .f32⟩
  | .hbm, ⟨60, _⟩ => ⟨S768x3072, .f32⟩
  | .hbm, ⟨61, _⟩ => ⟨S768x3072, .f32⟩
  | .hbm, ⟨62, _⟩ => ⟨S_, .f32⟩
  | .hbm, ⟨63, _⟩ => ⟨S768, .f32⟩
  | .hbm, ⟨64, _⟩ => ⟨S768, .f32⟩
  | .hbm, ⟨65, _⟩ => ⟨S768, .f32⟩
  | .hbm, ⟨66, _⟩ => ⟨S768, .f32⟩
  | .hbm, ⟨67, _⟩ => ⟨S768, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S768, .f32⟩
  | .hbm, ⟨72, _⟩ => ⟨S768, .f32⟩
  | .hbm, ⟨73, _⟩ => ⟨S_, .f32⟩
  | .hbm, ⟨74, _⟩ => ⟨S768, .f32⟩
  | .hbm, ⟨75, _⟩ => ⟨S768, .f32⟩
  | .hbm, ⟨76, _⟩ => ⟨S64x196x768, .f32⟩
  | .hbm, ⟨77, _⟩ => ⟨S1x1x768, .f32⟩
  | .hbm, ⟨78, _⟩ => ⟨S64x196x768, .f32⟩
  | .hbm, ⟨79, _⟩ => ⟨S64x196x768, .f32⟩
  | .hbm, ⟨80, _⟩ => ⟨S_, .f32⟩
  | .hbm, ⟨81, _⟩ => ⟨S64x196x768, .f32⟩
  | .hbm, ⟨82, _⟩ => ⟨S64x196x768, .f32⟩
  | .hbm, ⟨83, _⟩ => ⟨S_, .f32⟩
  | _, _ => ⟨S64x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_cst_4 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_cst_8 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_9 : Ref sig .tc := ⟨.hbm, 68, rfl⟩
abbrev main_cst_10 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_call7_v3 : Ref sig .tc := ⟨.hbm, 73, rfl⟩
abbrev main_call7_v4 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call8_cst : Ref sig .tc := ⟨.hbm, 80, rfl⟩
abbrev main_call8_v0 : Ref sig .tc := ⟨.hbm, 81, rfl⟩
abbrev main_v42 : Ref sig .tc := ⟨.hbm, 82, rfl⟩
abbrev main_v43 : Ref sig .tc := ⟨.hbm, 83, rfl⟩

abbrev nD : Nat := 1
abbrev τ : Topo := Topo.v7x

variable {F : FTy → Type} [FloatOps F]

class Facts₀ : Prop where
  shapeCasts_S1_S_ : S1.ShapeCasts S_
  reducesTo_S3072x768_S_d0_1 : S3072x768.ReducesTo [0, 1] S_
  h_S_ : 0 < S_.numel
  bcast_S_S3072x768 : S_.BroadcastsInDim S3072x768 (![] : Fin 0 → Fin S3072x768.rank)
  bcast_S_S3072 : S_.BroadcastsInDim S3072 (![] : Fin 0 → Fin S3072.rank)
  bcast_S3072_S1x1x3072_2 : S3072.BroadcastsInDim S1x1x3072 (![2] : Fin 1 → Fin S1x1x3072.rank)
  bcast_S1x1x3072_S64x196x3072_0_1_2 : S1x1x3072.BroadcastsInDim S64x196x3072 (![0, 1, 2] : Fin 3 → Fin S64x196x3072.rank)
  reducesTo_S768x3072_S_d0_1 : S768x3072.ReducesTo [0, 1] S_
  bcast_S_S768x3072 : S_.BroadcastsInDim S768x3072 (![] : Fin 0 → Fin S768x3072.rank)
  bcast_S_S768 : S_.BroadcastsInDim S768 (![] : Fin 0 → Fin S768.rank)
  bcast_S768_S1x1x768_2 : S768.BroadcastsInDim S1x1x768 (![2] : Fin 1 → Fin S1x1x768.rank)
  bcast_S1x1x768_S64x196x768_0_1_2 : S1x1x768.BroadcastsInDim S64x196x768 (![0, 1, 2] : Fin 3 → Fin S64x196x768.rank)
  bcast_S_S64x196x768 : S_.BroadcastsInDim S64x196x768 (![] : Fin 0 → Fin S64x196x768.rank)
  dot_S64x196x768_S3072x768_S64x196x3072_2_1_01_0_n_n_wf : DotDims.WF S64x196x768 S3072x768 S64x196x3072 [2] [1] [0, 1] [0] [] []
  dot_S64x196x3072_S768x3072_S64x196x768_2_1_01_0_n_n_wf : DotDims.WF S64x196x3072 S768x3072 S64x196x768 [2] [1] [0, 1] [0] [] []

variable [Facts₀]

def dot_S64x196x768_S3072x768_S64x196x3072_2_1_01_0_n_n : DotDims S64x196x768 S3072x768 S64x196x3072 where
  lhsContracting := [2]
  rhsContracting := [1]
  lhsNonContracting := [0, 1]
  rhsNonContracting := [0]
  lhsBatch := []
  rhsBatch := []
  wf := dot_S64x196x768_S3072x768_S64x196x3072_2_1_01_0_n_n_wf
def dot_S64x196x3072_S768x3072_S64x196x768_2_1_01_0_n_n : DotDims S64x196x3072 S768x3072 S64x196x768 where
  lhsContracting := [2]
  rhsContracting := [1]
  lhsNonContracting := [0, 1]
  rhsNonContracting := [0]
  lhsBatch := []
  rhsBatch := []
  wf := dot_S64x196x3072_S768x3072_S64x196x768_2_1_01_0_n_n_wf

class Facts : Prop extends Facts₀ where

variable [Facts]
-- ==== Proof.Ste.lean ====
/-
  Straight-through rounding on the extended reals.

  The reference quantizes a tensor entry `x` against a scale `d` as `v + (round v - v)` with `v = x / d`; the kernel
  writes `round v`. Over the reals the two agree. Over the extended reals they agree exactly when `v` is not `+∞`
  (at `+∞` the difference `∞ - ∞` is `-∞` and drags the sum down). A finite `x` over a divisor `d ≠ 0` is finite —
  an infinite divisor has inverse `0` — so the two agree on every finite entry once the divisor is nonzero.
-/
import Idealize.ShloMosaic.PureOps.Ideal
import Idealize.ShloMosaic.Lib.ValueIdx

noncomputable section

namespace Cert.Quant

open Idealize.ShloMosaic

/-- The inverse of any extended real is a real number: the infinities invert to `0`. -/
theorem inv_real (d : EReal) : ∃ t : ℝ, d⁻¹ = (t : EReal) := by
  induction d using EReal.rec with
  | bot => exact ⟨0, by rw [EReal.inv_bot, EReal.coe_zero]⟩
  | coe r => exact ⟨r⁻¹, (EReal.coe_inv r).symm⟩
  | top => exact ⟨0, by rw [EReal.inv_top, EReal.coe_zero]⟩

/-- A real number over a nonzero divisor is a real number. -/
theorem div_real (r : ℝ) {d : EReal} (hd : d ≠ 0) : ∃ s : ℝ, Ideal.div (r : EReal) d = (s : EReal) := by
  obtain ⟨t, ht⟩ := inv_real d
  exact ⟨r * t, by rw [Ideal.div, if_neg hd, ht, EReal.coe_mul]⟩

/-- At a real `s`, `s + (round s - s) = round s`: real arithmetic. -/
theorem ste_real (s : ℝ) :
    (s : EReal) + (Ideal.liftRound Ideal.roundHalfEven (s : EReal) - (s : EReal))
      = Ideal.liftRound Ideal.roundHalfEven (s : EReal) := by
  rw [Ideal.liftRound_coe, ← EReal.coe_sub, ← EReal.coe_add]
  congr 1
  ring

/-- Entry by entry: a tensor of real entries over a tensor of nonzero divisors, rounded straight through, is the rounded
    quotient. -/
theorem ste_vec {s : Shape} {φ : FTy} (w D : FVec Ideal s φ) (hw : ∀ i, ∃ r : ℝ, w i = (r : EReal)) (hD : ∀ i, D i ≠ 0) :
    addf (Host.divf w D) (subf (Host.roundeven (Host.divf w D)) (Host.divf w D)) = Host.roundeven (Host.divf w D) := by
  funext i
  obtain ⟨r, hr⟩ := hw i
  obtain ⟨s', hs⟩ := div_real r (hD i)
  show Ideal.div (w i) (D i) + (Ideal.liftRound Ideal.roundHalfEven (Ideal.div (w i) (D i)) - Ideal.div (w i) (D i))
    = Ideal.liftRound Ideal.roundHalfEven (Ideal.div (w i) (D i))
  rw [hr, hs]
  exact ste_real s'

/-- A product of two nonzero extended reals is nonzero. -/
theorem mul_ne_zero' {a b : EReal} (ha : a ≠ 0) (hb : b ≠ 0) : a * b ≠ 0 := mul_ne_zero ha hb

/-- A nonzero extended real over a nonzero real is nonzero. -/
theorem div_coe_ne_zero {a : EReal} (ha : a ≠ 0) {c : ℝ} (hc : c ≠ 0) : Ideal.div a (c : EReal) ≠ 0 := by
  have hc' : (c : EReal) ≠ 0 := by exact_mod_cast hc
  rw [Ideal.div, if_neg hc', ← EReal.coe_inv]
  exact mul_ne_zero ha (by exact_mod_cast inv_ne_zero hc)

end Cert.Quant

end
-- ==== Proof.Spec.lean ====
/-
  The quantized two-layer perceptron, as mathematics.

  A weight or bias tensor `w` is quantized against a scalar divisor `d`: the quotient `w / d` is rounded to the nearest
  integer (ties to even) and clamped between two constants. The kernel rounds directly (`quantRound`); the reference rounds
  "straight through", `v + (round v - v)` (`quantSte`). On tensors of real entries over a nonzero divisor the two are
  one function (`quantSte_eq`, from `ste_vec`).

  One entry of the network's output: for the input row `x(b,t,·)`, hidden unit `j` is `Σ_d x(b,t,d)·W1(j,d) + B1(j)`, and
  output `q` is `max (Σ_j hidden_j · W2(q,j) + B2(q)) 0` (`mlpAt`). The same entry over a matrix of rows, with the biases
  kept as one-row matrices, is `rowAt`; it is what the kernel's body computes for a block of rows.
-/
import Idealize.ShloMosaic.PureOps.Ideal
import Idealize.ShloMosaic.PureOps.Ideal.Laws
import Idealize.ShloMosaic.Lib.ValueIdx
import Idealize.ShloMosaic.Lib.Pipeline.Value
import proofs.«156163_j57432302682876_2_alg».proof.Proof.Ste

noncomputable section

namespace Cert.Quant

open Idealize.ShloMosaic Idealize.ShloMosaic.ValueIdx

/-- The shape of a scalar. -/
abbrev S0 : Shape := ⟨0, ![]⟩

variable {s : Shape}

/-- A scalar spread over a shape reads the scalar at every index. -/
theorem spread_apply (hb : S0.BroadcastsInDim s (![] : Fin 0 → Fin s.rank)) (d : FVec Ideal S0 .f32) (i : s.Idx) :
    broadcastInDim s ![] hb d i = d ix0 :=
  broadcastInDim_apply _ hb d i ix0 (fun a => a.elim0)

/-- The per-tensor scale: the largest magnitude of the tensor over 127. -/
def scale {axes : List (Fin s.rank)} (w : FVec Ideal s .f32) (hr : s.ReducesTo axes S0) (hu : 0 < S0.numel) :
    FVec Ideal S0 .f32 :=
  Host.divf (Host.reduce FloatOps.maximumf (Host.absf w) (constant S0 .f32 0xFF800000#32) hr hu)
    (constant S0 .f32 0x42FE0000#32)

/-- Clamp every entry between the constants `lo` and `hi`. -/
def clamp (hb : S0.BroadcastsInDim s (![] : Fin 0 → Fin s.rank)) (lo hi : BitVec 32) (v : FVec Ideal s .f32) :
    FVec Ideal s .f32 :=
  minimumf (broadcastInDim s ![] hb (id (constant S0 .f32 hi)))
    (maximumf (broadcastInDim s ![] hb (id (constant S0 .f32 lo))) v)

/-- Quantize by rounding the quotient. -/
def quantRound (hb : S0.BroadcastsInDim s (![] : Fin 0 → Fin s.rank)) (lo hi : BitVec 32) (w : FVec Ideal s .f32)
    (d : FVec Ideal S0 .f32) : FVec Ideal s .f32 :=
  clamp hb lo hi (Host.roundeven (Host.divf w (broadcastInDim s ![] hb d)))

/-- Quantize by rounding the quotient straight through: `v + (round v - v)`. -/
def quantSte (hb : S0.BroadcastsInDim s (![] : Fin 0 → Fin s.rank)) (lo hi : BitVec 32) (w : FVec Ideal s .f32)
    (d : FVec Ideal S0 .f32) : FVec Ideal s .f32 :=
  clamp hb lo hi (addf (Host.divf w (broadcastInDim s ![] hb d))
    (subf (Host.roundeven (Host.divf w (broadcastInDim s ![] hb d))) (Host.divf w (broadcastInDim s ![] hb d))))

/-- On real entries over a nonzero divisor, rounding straight through is rounding. -/
theorem quantSte_eq (hb : S0.BroadcastsInDim s (![] : Fin 0 → Fin s.rank)) (lo hi : BitVec 32) (w : FVec Ideal s .f32)
    (d : FVec Ideal S0 .f32) (hw : ∀ i, ∃ r : ℝ, w i = (r : EReal)) (hd : d ix0 ≠ 0) :
    quantSte hb lo hi w d = quantRound hb lo hi w d := by
  unfold quantSte quantRound
  rw [ste_vec w (broadcastInDim s ![] hb d) hw (fun i => by rw [spread_apply]; exact hd)]

/-- One entry of the network's output over the extended reals: hidden unit `j` of input row `(b, t)` is
    `Σ_d x(b,t,d)·W1(j,d) + B1(j)`; output `q` is `max (Σ_j hidden_j·W2(q,j) + B2(q)) 0`. -/
def mlpAt (x : (⟨3, ![64, 196, 768]⟩ : Shape).Idx → EReal) (W1 : (⟨2, ![3072, 768]⟩ : Shape).Idx → EReal)
    (B1 : (⟨1, ![3072]⟩ : Shape).Idx → EReal) (W2 : (⟨2, ![768, 3072]⟩ : Shape).Idx → EReal)
    (B2 : (⟨1, ![768]⟩ : Shape).Idx → EReal) (b : Fin 64) (t : Fin 196) (q : Fin 768) : EReal :=
  max ((∑ j : Fin 3072, ((∑ d : Fin 768, x (ix3 b t d) * W1 (ix2 j d)) + B1 (ix1 j)) * W2 (ix2 q j)) + B2 (ix1 q))
    (Ideal.ofBits .f32 0x00000000#32)

/-- The same entry over a matrix of `M` rows, the biases one-row matrices: row `p`, output `q`. -/
def rowAt {M : Nat} (X : (⟨2, ![M, 768]⟩ : Shape).Idx → EReal) (W1 : (⟨2, ![3072, 768]⟩ : Shape).Idx → EReal)
    (B1 : (⟨2, ![1, 3072]⟩ : Shape).Idx → EReal) (W2 : (⟨2, ![768, 3072]⟩ : Shape).Idx → EReal)
    (B2 : (⟨2, ![1, 768]⟩ : Shape).Idx → EReal) (p : Fin M) (q : Fin 768) : EReal :=
  max ((∑ j : Fin 3072, ((∑ d : Fin 768, X (ix2 p d) * W1 (ix2 j d)) + B1 (ix2 0 j)) * W2 (ix2 q j)) + B2 (ix2 0 q))
    (Ideal.ofBits .f32 0x00000000#32)

end Cert.Quant

end
-- ==== Proof.KerScales.lean ====
/-
  The three scalars the kernel's host code computes from its arguments: the two per-tensor weight scales `max|w|/127` and the
  activation scale `a_s` read as a scalar.
-/
import proofs.«156163_j57432302682876_2_alg».proof.Proof.Gen.KernelIdeal.Frame
import Idealize.ShloMosaic.Lib.Pipeline.Value
import Idealize.ShloMosaic.Lib.ValueIdx
import Idealize.ShloMosaic.Lib.StableHlo.Run
import proofs.«156163_j57432302682876_2_alg».proof.Proof.Spec

noncomputable section

namespace Cert.KernelIdeal.Hand

open Cert.KernelIdeal Cert.KernelIdeal.Gen Cert.Quant Idealize.ShloMosaic Idealize.ShloMosaic.TcCoe Idealize.SL.Sem Idealize.ShloMosaic.StableHlo Idealize.ShloMosaic.ValueIdx

variable (m : (ℓ : Loc nD τ sig) → Buf (Elt Ideal) ℓ)

/-- The first layer's weight scale. -/
abbrev ws1 (c : Dev nD) : FVec Ideal S0 .f32 :=
  scale (m ((c : Thread nD τ).loc main_arg1)) reducesTo_S3072x768_S_d0_1 h_S_

/-- The second layer's weight scale. -/
abbrev ws2 (c : Dev nD) : FVec Ideal S0 .f32 :=
  scale (m ((c : Thread nD τ).loc main_arg3)) reducesTo_S768x3072_S_d0_1 h_S_

/-- The activation scale as a scalar. -/
abbrev as0 (c : Dev nD) : FVec Ideal S0 .f32 :=
  shapeCast S_ (m ((c : Thread nD τ).loc main_arg5)) shapeCasts_S1_S_

end Cert.KernelIdeal.Hand

end
-- ==== Proof.KerHostA.lean ====
/-
  The arrays the kernel's region is launched on, first half: each is a function of the argument arrays, computed by the
  host operations that precede the region. The input `x` [64,196,768] is flattened to 12544 rows (its format change is
  the identity on the extended reals); the first layer's weights are `w1` quantized against its scale `max|w1|/127`,
  clamped to ±127; the first layer's bias is `b1` quantized against `scale(w1)·a_s`, clamped to ±2³¹, as one row.
-/
import proofs.«156163_j57432302682876_2_alg».proof.Proof.Gen.KernelIdeal.Frame
import Idealize.ShloMosaic.Lib.Pipeline.Value
import Idealize.ShloMosaic.Lib.ValueIdx
import Idealize.ShloMosaic.Lib.StableHlo.Run
import proofs.«156163_j57432302682876_2_alg».proof.Proof.Spec
import proofs.«156163_j57432302682876_2_alg».proof.Proof.KerScales

noncomputable section

namespace Cert.KernelIdeal.Hand

open Cert.KernelIdeal Cert.KernelIdeal.Gen Cert.Quant Idealize.ShloMosaic Idealize.ShloMosaic.TcCoe Idealize.SL.Sem Idealize.ShloMosaic.StableHlo Idealize.ShloMosaic.ValueIdx

variable (m : (ℓ : Loc nD τ sig) → Buf (Elt Ideal) ℓ)

/-- The rows the region reads: the input flattened. -/
theorem V_rows (c : Dev nD) : (V m c main_v28 : S12544x768.Idx → EReal)
    = truncf (F := Ideal) .bf16 (shapeCast S12544x768 (m ((c : Thread nD τ).loc main_arg0) : S64x196x768.Idx → EReal) shapeCasts_S64x196x768_S12544x768) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results
  rfl

set_option maxHeartbeats 4000000 in
/-- The first layer's weights as the region reads them. -/
theorem V_w1 (c : Dev nD) : (V m c main_v29 : S3072x768.Idx → EReal)
    = truncf (F := Ideal) .bf16 (quantRound bcast_S_S3072x768 0xC2FE0000#32 0x42FE0000#32 (m ((c : Thread nD τ).loc main_arg1)) (ws1 m c)) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results
  rfl

set_option maxHeartbeats 4000000 in
/-- The first layer's bias as the region reads it: one row. -/
theorem V_b1 (c : Dev nD) : (V m c main_v31 : S1x3072.Idx → EReal)
    = shapeCast S1x3072 (quantRound bcast_S_S3072 0xCF000000#32 0x4F000000#32 (m ((c : Thread nD τ).loc main_arg2)) (mulf (ws1 m c) (as0 m c))) shapeCasts_S3072_S1x3072 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results
  rfl

end Cert.KernelIdeal.Hand

end
-- ==== Proof.KerHostB.lean ====
/-
  The arrays the kernel's region is launched on, second half, and what the host does after the region. The second layer's
  weights are `w2` quantized against `max|w2|/127`, clamped to ±127; its bias is `b2` quantized against
  `scale(w2)·(a_s·scale(w1))`, clamped to ±2³¹, as one row. The second result is the product of the three scales. After the
  region the host only re-folds the region's [12544, 768] array into [64, 196, 768].
-/
import proofs.«156163_j57432302682876_2_alg».proof.Proof.Gen.KernelIdeal.Frame
import Idealize.ShloMosaic.Lib.Pipeline.Value
import Idealize.ShloMosaic.Lib.ValueIdx
import Idealize.ShloMosaic.Lib.StableHlo.Run
import proofs.«156163_j57432302682876_2_alg».proof.Proof.Spec
import proofs.«156163_j57432302682876_2_alg».proof.Proof.KerScales

noncomputable section

namespace Cert.KernelIdeal.Hand

open Cert.KernelIdeal Cert.KernelIdeal.Gen Cert.Quant Idealize.ShloMosaic Idealize.ShloMosaic.TcCoe Idealize.SL.Sem Idealize.ShloMosaic.StableHlo Idealize.ShloMosaic.ValueIdx

variable (m : (ℓ : Loc nD τ sig) → Buf (Elt Ideal) ℓ)

set_option maxHeartbeats 4000000 in
/-- The second layer's weights as the region reads them. -/
theorem V_w2 (c : Dev nD) : (V m c main_v30 : S768x3072.Idx → EReal)
    = truncf (F := Ideal) .bf16 (quantRound bcast_S_S768x3072 0xC2FE0000#32 0x42FE0000#32 (m ((c : Thread nD τ).loc main_arg3)) (ws2 m c)) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results
  rfl

set_option maxHeartbeats 4000000 in
/-- The second layer's bias as the region reads it: one row. -/
theorem V_b2 (c : Dev nD) : (V m c main_v32 : S1x768.Idx → EReal)
    = shapeCast S1x768 (quantRound bcast_S_S768 0xCF000000#32 0x4F000000#32 (m ((c : Thread nD τ).loc main_arg4)) (mulf (ws2 m c) (mulf (as0 m c) (ws1 m c)))) shapeCasts_S768_S1x768 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results
  rfl

set_option maxHeartbeats 4000000 in
/-- The output scale the host computes before the region: the product of the three scales. -/
theorem V_s (c : Dev nD) : (V m c main_v26 : S_.Idx → EReal) = mulf (mulf (as0 m c) (ws1 m c)) (ws2 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results
  rfl

/-- After the region the first result is the region's output array re-folded into [64, 196, 768]. -/
theorem tail_out (c : Dev nD) :
    (Pipeline.afterTail₀ cfgs (dats m) 0 (V0 m) [hostOps1] c main_v34 : S64x196x768.Idx → EReal)
      = shapeCast S64x196x768 ((dats m 0 c).arrAt 5 cfg0.N) shapeCasts_S12544x768_S64x196x768 := by
  unfold Pipeline.afterTail₀
  show StableHlo.after hostOps1 _ (Proc.devRef .tc main_v34) = _
  after_results
  rw [Pipeline.withArrays_arr spec0 launch0.win.arr_inj c _ _ 5]
  rfl

/-- The host's operations after the region leave the output scale as it was. -/
theorem tail_s (c : Dev nD) :
    (Pipeline.afterTail₀ cfgs (dats m) 0 (V0 m) [hostOps1] c main_v26 : S_.Idx → EReal) = V m c main_v26 := by
  unfold Pipeline.afterTail₀
  show StableHlo.after hostOps1 _ (Proc.devRef .tc main_v26) = _
  after_results
  exact Pipeline.withArrays_of_ne _ c (V0 m c) _ main_v26 (by exact (by decide : ∀ w, Pipeline.arrRef spec0 w ≠ main_v26))

end Cert.KernelIdeal.Hand

end
-- ==== Proof.LibMatmulNT.lean ====
/-
  A matrix product against a transposed right operand, read at an entry.

  At the exact (extended-real) instance, the matrix unit's product of an [M, K] left operand with an [N, K] right operand,
  both contracted along their second axis, accumulated into zero, is at row `p` and column `q` the sum over `k` of
  `lhs(p, k) · rhs(q, k)`: the textbook `lhs · rhsᵀ`. For any extents, any operand formats, and any witness of the dimension
  numbers' side conditions.
-/
import Idealize.ShloMosaic.PureOps.Ideal.Laws
import Idealize.ShloMosaic.Lib.ValueIdx
import Idealize.ShloMosaic.Lib.Pipeline.Value

noncomputable section

namespace Idealize.ShloMosaic.MatmulNT

open Idealize.ShloMosaic Idealize.ShloMosaic.ValueIdx

variable {M K N : Nat} {φ₁ φ₂ : FTy}

/-- The dimension numbers of `lhs · rhsᵀ`: rows × contraction by columns × contraction, for any witness of their side
    conditions. -/
abbrev dims (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ :=
  ⟨[1], [1], [0], [0], [], [], wf⟩

/-- Over the extended reals `lhs · rhsᵀ` into a zero accumulator is, at row `p` and column `q`, the sum over the contracted
    coordinate `k` of the left operand at `(p, k)` times the right operand at `(q, k)`. -/
theorem matmul_zero_apply (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 q k := funext fun a => Fin.ext (by
    match a with
    | ⟨0, h0⟩ =>
      unfold DotDims.rhsIdx
      rw [dif_neg (List.not_mem_nil : ¬(⟨0, h0⟩ : Fin 2) ∈ (dims wf).rhsBatch),
        dif_pos (List.mem_singleton.mpr rfl : (⟨0, h0⟩ : Fin 2) ∈ (dims wf).rhsNonContracting)]
      rfl
    | ⟨1, _⟩ => exact ((dims wf).rhsIdx_val_of_single rfl _ _).trans hk)
  rw [el, er]

end Idealize.ShloMosaic.MatmulNT

end
-- ==== Proof.KerPay.lean ====
/-
  What the kernel's body stores, at one entry.

  The body loads a block of 784 input rows, both weight matrices and both bias rows whole, and stores
  `max ((x·W1ᵀ + b1)·W2ᵀ + b2) 0`. Both matrix products contract along the operands' second axis into a zero accumulator, so at
  row `p` and output `q` the stored value is `rowAt`: the hidden units `Σ_d x(p,d)·W1(j,d) + b1(0,j)`, summed against `W2(q,j)`,
  plus `b2(0,q)`, clipped below at zero. The narrowing of the hidden layer's format is the identity on the extended reals.
-/
import proofs.«156163_j57432302682876_2_alg».proof.Proof.Gen.KernelIdeal.Frame
import Idealize.ShloMosaic.Lib.Pipeline.Value
import Idealize.ShloMosaic.Lib.ValueIdx
import Idealize.ShloMosaic.Lib.StableHlo.Run
import proofs.«156163_j57432302682876_2_alg».proof.Proof.Spec
import proofs.«156163_j57432302682876_2_alg».proof.Proof.LibMatmulNT

noncomputable section

namespace Cert.KernelIdeal.Hand

open Cert.KernelIdeal Cert.KernelIdeal.Gen Cert.Quant Idealize.ShloMosaic Idealize.ShloMosaic.TcCoe Idealize.SL.Sem Idealize.ShloMosaic.StableHlo Idealize.ShloMosaic.ValueIdx

variable (m : (ℓ : Loc nD τ sig) → Buf (Elt Ideal) ℓ)

/-- A one-row matrix repeated down `R` rows reads its row. -/
theorem row_spread {R N : Nat} (x : (⟨2, ![1, N]⟩ : Shape).Idx → EReal)
    (h : (⟨2, ![1, N]⟩ : Shape).Broadcasts ⟨2, ![R, N]⟩) (p : Fin R) (j : Fin N) :
    broadcastTo ⟨2, ![R, N]⟩ x h (ix2 p j) = x (ix2 0 j) :=
  broadcastTo_apply x h (ix2 p j) (ix2 0 j) (fun a => by
    match a with
    | ⟨0, _⟩ => show (0 : Nat) = if (1 : Nat) = 1 then 0 else _; rw [if_pos rfl]
    | ⟨1, _⟩ =>
      show j.val = if N = 1 then 0 else j.val
      split
      · have := j.isLt; omega
      · rfl)

/-- The stored block at row `p`, output `q`. -/
theorem pay_apply (x0 : Vec Ideal S784x768 .bf16) (x1 : Vec Ideal S3072x768 .bf16) (x2 : Vec Ideal S1x3072 .f32)
    (x3 : Vec Ideal S768x3072 .bf16) (x4 : Vec Ideal S1x768 .f32) (p : Fin 784) (q : Fin 768) :
    k0_pay1 x0 x1 x2 x3 x4 (ix2 p q) = rowAt x0 x1 x2 x3 x4 p q := by
  unfold k0_pay1
  rw [shapeCast_self, shapeCast_self, shapeCast_self, shapeCast_self, shapeCast_self]
  rw [maximumf_apply, addf_apply, broadcast_apply]
  unfold rowAt
  refine congrArg₂ max (congrArg₂ (· + ·) ?_ (row_spread x4 broadcasts_S1x768_S784x768 p q)) rfl
  refine (MatmulNT.matmul_zero_apply (φ₁ := .bf16) (φ₂ := .bf16) dot_S784x3072_S768x3072_S784x768_1_1_0_0_n_n_wf none
    (truncf .bf16 (addf (matmul dot_S784x768_S3072x768_S784x3072_1_1_0_0_n_n none x0 x1 (constant S784x3072 .f32 0x00000000#32))
      (broadcastTo S784x3072 x2 broadcasts_S1x3072_S784x3072)) bitsLt_bf16_f32) x3 p q).trans ?_
  refine Finset.sum_congr rfl fun j _ => congrArg₂ (· * ·) ?_ rfl
  rw [truncf_apply, addf_apply]
  exact congrArg₂ (· + ·) (MatmulNT.matmul_zero_apply (φ₁ := .bf16) (φ₂ := .bf16) dot_S784x768_S3072x768_S784x3072_1_1_0_0_n_n_wf none x0 x1 p j)
    (row_spread x2 broadcasts_S1x3072_S784x3072 p j)

end Cert.KernelIdeal.Hand

end
-- ==== Proof.KerBlocks.lean ====
/-
  From the blocks to the region's whole output array.

  The grid has 16 points; point `t` reads rows `784·t … 784·t + 783` of the 12544 input rows and the two weight matrices and
  two bias rows whole, and writes rows `784·t … 784·t + 783` of the output. What it writes is the block of ONE function of
  the arrays the region is launched on: `rowAt` at the global row. Every output row lies in exactly the block of the point
  `row / 784`, so after the run the output array is that function everywhere.
-/
import proofs.«156163_j57432302682876_2_alg».proof.Proof.Gen.KernelIdeal.Frame
import Idealize.ShloMosaic.Lib.Pipeline.Value
import Idealize.ShloMosaic.Lib.ValueIdx
import Idealize.ShloMosaic.Lib.StableHlo.Run
import proofs.«156163_j57432302682876_2_alg».proof.Proof.Spec
import proofs.«156163_j57432302682876_2_alg».proof.Proof.KerPay

noncomputable section

namespace Cert.KernelIdeal.Hand

open Cert.KernelIdeal Cert.KernelIdeal.Gen Cert.Quant Idealize.ShloMosaic Idealize.ShloMosaic.TcCoe Idealize.SL.Sem Idealize.ShloMosaic.StableHlo Idealize.ShloMosaic.ValueIdx

variable (m : (ℓ : Loc nD τ sig) → Buf (Elt Ideal) ℓ)

theorem hz : (![0, 0] : Fin 2 → Nat) = fun _ => 0 := funext fun a => by fin_cases a <;> rfl

/-- The region's output as one function of the arrays it is launched on: row `i 0`, output `i 1`. -/
abbrev outArr (X : S12544x768.Idx → EReal) (W1 : S3072x768.Idx → EReal) (B1 : S1x3072.Idx → EReal)
    (W2 : S768x3072.Idx → EReal) (B2 : S1x768.Idx → EReal) : S12544x768.Idx → EReal :=
  fun i => rowAt X W1 B1 W2 B2 (i 0) (i 1)

/-- The printed index maps over the 16 points: the input rows and the output move with the point, the weights and biases
    stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s block of input rows: local row `p` is global row `784·t + p`. -/
theorem rows_blk (c : Dev nD) (t : Fin cfg0.N) (p : Fin 784) (d : Fin 768) (hp : 784 * t.val + p.val < 12544) :
    iblk m c 0 t (ix2 p d) = V m c main_v28 (ix2 ⟨784 * t.val + p.val, hp⟩ d) := by
  obtain ⟨e0, e1, -⟩ := idx_facts t
  show V m c main_v28 (((cfg0.win 0).blk t).view.emb (ix2 p d)) = _
  refine congrArg _ (funext fun a => Fin.ext ?_)
  match a with
  | ⟨0, _⟩ => show win0_0.index t (0 : Fin 2) * 784 + 1 * p.val = 784 * t.val + p.val; omega
  | ⟨1, _⟩ => show win0_0.index t (1 : Fin 2) * 768 + 1 * d.val = d.val; omega

/-- The first layer's weights are read whole at every point. -/
theorem w1_blk (c : Dev nD) (t : Fin cfg0.N) (j : Fin 3072) (d : Fin 768) :
    iblk m c 1 t (ix2 j d) = V m c main_v29 (ix2 j d) := by
  obtain ⟨-, -, e0, e1, -⟩ := idx_facts t
  show V m c main_v29 (((cfg0.win 1).blk t).view.emb (ix2 j d)) = _
  refine congrArg _ (funext fun a => Fin.ext ?_)
  match a with
  | ⟨0, _⟩ => show win0_1.index t (0 : Fin 2) * 3072 + 1 * j.val = j.val; omega
  | ⟨1, _⟩ => show win0_1.index t (1 : Fin 2) * 768 + 1 * d.val = d.val; omega

/-- The first layer's bias row is read whole at every point. -/
theorem b1_blk (c : Dev nD) (t : Fin cfg0.N) (j : Fin 3072) :
    iblk m c 2 t (ix2 0 j) = V m c main_v31 (ix2 0 j) := by
  obtain ⟨-, -, -, -, e0, e1, -⟩ := idx_facts t
  show V m c main_v31 (((cfg0.win 2).blk t).view.emb (ix2 0 j)) = _
  refine congrArg _ (funext fun a => Fin.ext ?_)
  match a with
  | ⟨0, _⟩ => show win0_2.index t (0 : Fin 2) * 1 + 1 * 0 = 0; omega
  | ⟨1, _⟩ => show win0_2.index t (1 : Fin 2) * 3072 + 1 * j.val = j.val; omega

/-- The second layer's weights are read whole at every point. -/
theorem w2_blk (c : Dev nD) (t : Fin cfg0.N) (q : Fin 768) (j : Fin 3072) :
    iblk m c 3 t (ix2 q j) = V m c main_v30 (ix2 q j) := by
  obtain ⟨-, -, -, -, -, -, e0, e1, -⟩ := idx_facts t
  show V m c main_v30 (((cfg0.win 3).blk t).view.emb (ix2 q j)) = _
  refine congrArg _ (funext fun a => Fin.ext ?_)
  match a with
  | ⟨0, _⟩ => show win0_3.index t (0 : Fin 2) * 768 + 1 * q.val = q.val; omega
  | ⟨1, _⟩ => show win0_3.index t (1 : Fin 2) * 3072 + 1 * j.val = j.val; omega

/-- The second layer's bias row is read whole at every point. -/
theorem b2_blk (c : Dev nD) (t : Fin cfg0.N) (q : Fin 768) :
    iblk m c 4 t (ix2 0 q) = V m c main_v32 (ix2 0 q) := by
  obtain ⟨-, -, -, -, -, -, -, -, e0, e1, -⟩ := idx_facts t
  show V m c main_v32 (((cfg0.win 4).blk t).view.emb (ix2 0 q)) = _
  refine congrArg _ (funext fun a => Fin.ext ?_)
  match a with
  | ⟨0, _⟩ => show win0_4.index t (0 : Fin 2) * 1 + 1 * 0 = 0; omega
  | ⟨1, _⟩ => show win0_4.index t (1 : Fin 2) * 768 + 1 * q.val = q.val; omega

/-- What point `t` writes back is block `t` of `outArr` of the arrays the region is launched on. -/
theorem flushed_eq (c : Dev nD) (t : Fin cfg0.N) :
    (dats m 0 c).flushed 5 t = ((cfg0.win 5).blk t).view.read (Elt Ideal)
      (outArr (V m c main_v28) (V m c main_v29) (V m c main_v31) (V m c main_v30) (V m c main_v32)) := by
  show (cfg0.win 5).cut (grid0.coords t) ((dats m 0 c).after 5 t) = _
  rw [after0_5]
  unfold out0_5
  rw [View.canon_unit_zero hz]
  simp only [View.ld_unit_zero (S := S784x768) hz, View.ld_unit_zero (S := S3072x768) hz, View.ld_unit_zero (S := S1x3072) hz,
    View.ld_unit_zero (S := S768x3072) hz, View.ld_unit_zero (S := S1x768) hz]
  obtain ⟨-, -, -, -, -, -, -, -, -, -, e0, e1⟩ := idx_facts t
  funext y
  obtain ⟨p, q, rfl⟩ : ∃ (p : Fin 784) (q : Fin 768), y = ix2 p q := ⟨y 0, y 1, eq_ix2 y⟩
  have ht : t.val < 16 := lt_of_lt_of_eq t.isLt N_0
  have hp : 784 * t.val + p.val < 12544 := by have := p.isLt; omega
  have g0 : (((cfg0.win 5).blk t).view.emb (ix2 p q)) 0 = (⟨784 * t.val + p.val, hp⟩ : Fin 12544) :=
    Fin.ext (by show win0_5.index t (0 : Fin 2) * 784 + 1 * p.val = 784 * t.val + p.val; omega)
  have g1 : (((cfg0.win 5).blk t).view.emb (ix2 p q)) 1 = q :=
    Fin.ext (by show win0_5.index t (1 : Fin 2) * 768 + 1 * q.val = q.val; omega)
  show k0_pay1 (iblk m c 0 t) (iblk m c 1 t) (iblk m c 2 t) (iblk m c 3 t) (iblk m c 4 t) (ix2 p q)
    = rowAt (V m c main_v28) (V m c main_v29) (V m c main_v31) (V m c main_v30) (V m c main_v32)
        ((((cfg0.win 5).blk t).view.emb (ix2 p q)) 0) ((((cfg0.win 5).blk t).view.emb (ix2 p q)) 1)
  rw [g0, g1]
  refine (pay_apply (iblk m c 0 t) (iblk m c 1 t) (iblk m c 2 t) (iblk m c 3 t) (iblk m c 4 t) p q).trans ?_
  unfold rowAt
  exact congrArg₂ max (congrArg₂ (· + ·) (Finset.sum_congr rfl fun j _ => congrArg₂ (· * ·)
    (congrArg₂ (· + ·) (Finset.sum_congr rfl fun d _ => congrArg₂ (· * ·) (rows_blk m c t p d hp) (w1_blk m c t j d))
      (b1_blk m c t j)) (w2_blk m c t q j)) (b2_blk m c t q)) rfl

/-- An index of the output array is in point `t`'s block iff each coordinate is in the block's range on its axis. -/
theorem mem_blk (t : Fin cfg0.N) (i : S12544x768.Idx) :
    i ∈ ((cfg0.win 5).blk t).view.set ↔ ∀ a : Fin 2, win0_5.index t a * S784x768.size a ≤ (i a).val
      ∧ (i a).val < win0_5.index t a * S784x768.size a + S784x768.size a := by
  show i ∈ ((View.whole main_v33).slice (win0_5.rect t)).set ↔ _
  rw [View.set_slice_whole, Rect.mem_set_unit]
  exact Iff.rfl

/-- Every output index is in the block of the point `row / 784`. -/
theorem cover (i : S12544x768.Idx) :
    ∃ t : Fin cfg0.N, (cfg0.win 5).flush t = true ∧ i ∈ ((cfg0.win 5).blk t).view.set := by
  have hi0 : (i 0).val < 12544 := (i 0).isLt
  have hi1 : (i 1).val < 768 := (i 1).isLt
  have hN : grid0.N = 16 := N_0
  let t : Fin cfg0.N := ⟨(i 0).val / 784, by show (i 0).val / 784 < grid0.N; omega⟩
  have htv : t.val = (i 0).val / 784 := rfl
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 784 ≤ (i 0).val ∧ (i 0).val < win0_5.index t (0 : Fin 2) * 784 + 784
    omega
  | ⟨1, _⟩ =>
    show win0_5.index t (1 : Fin 2) * 768 ≤ (i 1).val ∧ (i 1).val < win0_5.index t (1 : Fin 2) * 768 + 768
    omega

/-- The region's output array after the run. -/
theorem final (c : Dev nD) : (dats m 0 c).arrAt 5 cfg0.N
    = outArr (V m c main_v28) (V m c main_v29) (V m c main_v31) (V m c main_v30) (V m c main_v32) :=
  (dats m 0 c).arrAt_eq_of_cover 5 _ (fun t _ => flushed_eq m c t) cover

end Cert.KernelIdeal.Hand

end
-- ==== Proof.KerRun.lean ====
/-
  The kernel's run with both results named, and its first result read at one entry.

  The region's output array is `outArr` of the arrays the region is launched on; the host then re-folds it to [64, 196, 768].
  Reading the re-fold at (b, t, q) reads row `196·b + t`; reading the flattened input at that row and feature `d` reads
  `x(b, t, d)`; the bias rows read the bias vectors at their own coordinate; the format changes are the identity. So the
  first result at (b, t, q) is the network's entry `mlpAt` of the input and of the kernel's own quantized weights and biases
  (each `quantRound` of an argument against its divisor). The second result is the product of the three scales.
-/
import proofs.«156163_j57432302682876_2_alg».proof.Proof.Gen.KernelIdeal.Frame
import Idealize.ShloMosaic.Lib.Pipeline.Value
import Idealize.ShloMosaic.Lib.ValueIdx
import Idealize.ShloMosaic.Lib.StableHlo.Run
import proofs.«156163_j57432302682876_2_alg».proof.Proof.Spec
import proofs.«156163_j57432302682876_2_alg».proof.Proof.KerScales
import proofs.«156163_j57432302682876_2_alg».proof.Proof.KerHostA
import proofs.«156163_j57432302682876_2_alg».proof.Proof.KerHostB
import proofs.«156163_j57432302682876_2_alg».proof.Proof.KerBlocks

noncomputable section

namespace Cert.KernelIdeal.Hand

open Cert.KernelIdeal Cert.KernelIdeal.Gen Cert.Quant Idealize.ShloMosaic Idealize.ShloMosaic.TcCoe Idealize.SL.Sem Idealize.ShloMosaic.StableHlo Idealize.ShloMosaic.ValueIdx

variable (m : (ℓ : Loc nD τ sig) → Buf (Elt Ideal) ℓ)

/-- The kernel's quantized first-layer weights. -/
abbrev W1K (c : Dev nD) : FVec Ideal S3072x768 .f32 :=
  quantRound bcast_S_S3072x768 0xC2FE0000#32 0x42FE0000#32 (m ((c : Thread nD τ).loc main_arg1)) (ws1 m c)
/-- The kernel's quantized first-layer bias. -/
abbrev B1K (c : Dev nD) : FVec Ideal S3072 .f32 :=
  quantRound bcast_S_S3072 0xCF000000#32 0x4F000000#32 (m ((c : Thread nD τ).loc main_arg2)) (mulf (ws1 m c) (as0 m c))
/-- The kernel's quantized second-layer weights. -/
abbrev W2K (c : Dev nD) : FVec Ideal S768x3072 .f32 :=
  quantRound bcast_S_S768x3072 0xC2FE0000#32 0x42FE0000#32 (m ((c : Thread nD τ).loc main_arg3)) (ws2 m c)
/-- The kernel's quantized second-layer bias. -/
abbrev B2K (c : Dev nD) : FVec Ideal S768 .f32 :=
  quantRound bcast_S_S768 0xCF000000#32 0x4F000000#32 (m ((c : Thread nD τ).loc main_arg4))
    (mulf (ws2 m c) (mulf (as0 m c) (ws1 m c)))

/-- The kernel's first result: the region's output re-folded. -/
def kerOut (c : Dev nD) : S64x196x768.Idx → EReal :=
  shapeCast S64x196x768 (outArr (V m c main_v28) (V m c main_v29) (V m c main_v31) (V m c main_v30) (V m c main_v32))
    shapeCasts_S12544x768_S64x196x768

/-- The kernel's second result: the product of the three scales. -/
def kerS (c : Dev nD) : S_.Idx → EReal := mulf (mulf (as0 m c) (ws1 m c)) (ws2 m c)

/-- Row `196·b + t`, feature `d` of the flattened input is `x(b, t, d)`. -/
theorem rows_apply (c : Dev nD) (b : Fin 64) (t : Fin 196) (d : Fin 768) (h : b.val * 196 + t.val < 12544) :
    V m c main_v28 (ix2 ⟨b.val * 196 + t.val, h⟩ d) = m ((c : Thread nD τ).loc main_arg0) (ix3 b t d) := by
  rw [V_rows]
  exact shapeCast_apply _ shapeCasts_S64x196x768_S12544x768 _ (ix3 b t d)
    (by rw [Shape.rowMajor_val_three, Shape.rowMajor_val_two]; rfl)

theorem w1_apply (c : Dev nD) (j : Fin 3072) (d : Fin 768) : V m c main_v29 (ix2 j d) = W1K m c (ix2 j d) := by
  rw [V_w1]; rfl

theorem w2_apply (c : Dev nD) (q : Fin 768) (j : Fin 3072) : V m c main_v30 (ix2 q j) = W2K m c (ix2 q j) := by
  rw [V_w2]; rfl

theorem b1_apply (c : Dev nD) (j : Fin 3072) : V m c main_v31 (ix2 0 j) = B1K m c (ix1 j) := by
  rw [V_b1]
  exact shapeCast_apply _ shapeCasts_S3072_S1x3072 (ix2 0 j) (ix1 j)
    (by rw [Shape.rowMajor_val_one, Shape.rowMajor_val_two]; show j.val = 0 * 3072 + j.val; omega)

theorem b2_apply (c : Dev nD) (q : Fin 768) : V m c main_v32 (ix2 0 q) = B2K m c (ix1 q) := by
  rw [V_b2]
  exact shapeCast_apply _ shapeCasts_S768_S1x768 (ix2 0 q) (ix1 q)
    (by rw [Shape.rowMajor_val_one, Shape.rowMajor_val_two]; show q.val = 0 * 768 + q.val; omega)

/-- The kernel's first result at one entry. -/
theorem kerOut_apply (c : Dev nD) (i : S64x196x768.Idx) :
    kerOut m c i = mlpAt (m ((c : Thread nD τ).loc main_arg0)) (W1K m c) (B1K m c) (W2K m c) (B2K m c) (i 0) (i 1) (i 2) := by
  have hP : (i 0).val * 196 + (i 1).val < 12544 := by
    have h0 : (i 0).val < 64 := (i 0).isLt
    have h1 : (i 1).val < 196 := (i 1).isLt
    omega
  unfold kerOut
  rw [shapeCast_apply _ shapeCasts_S12544x768_S64x196x768 i (ix2 ⟨(i 0).val * 196 + (i 1).val, hP⟩ (i 2))
    (by rw [Shape.rowMajor_val_three, Shape.rowMajor_val_two]; rfl)]
  show rowAt (V m c main_v28) (V m c main_v29) (V m c main_v31) (V m c main_v30) (V m c main_v32)
    ⟨(i 0).val * 196 + (i 1).val, hP⟩ (i 2) = _
  unfold rowAt mlpAt
  exact congrArg₂ max (congrArg₂ (· + ·) (Finset.sum_congr rfl fun j _ => congrArg₂ (· * ·)
    (congrArg₂ (· + ·) (Finset.sum_congr rfl fun d _ => congrArg₂ (· * ·) (rows_apply m c (i 0) (i 1) d hP) (w1_apply m c j d))
      (b1_apply m c j)) (w2_apply m c (i 2) j)) (b2_apply m c (i 2))) rfl

variable (ρ : Dev nD → PrngReg)

/-- The kernel's run: both results named, the arguments unchanged. -/
theorem run : θ_run defs (onTc (τ := τ) (main (F := Ideal))) ⟨m, fun _ => 0, ρ⟩ fun r => ∀ c : Dev nD,
      r.2.mem ((c.tc : Thread nD τ).loc main_v34) = kerOut m c
      ∧ r.2.mem ((c.tc : Thread nD τ).loc main_v26) = kerS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v34 (Pipeline.mem_restRefs_of main_v34 (by decide) (by decide))).trans
        ((tail_out m c).trans (congrArg (fun A => shapeCast S64x196x768 A shapeCasts_S12544x768_S64x196x768) (final m c))),
      ((h c).2 main_v26 (Pipeline.mem_restRefs_of main_v26 (by decide) (by decide))).trans ((tail_s m c).trans (V_s m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.RefRead.lean ====
/-
  The reference, read at one output entry.

  The reference's first result at index (b, t, q) is the network's entry `mlpAt` of the input and of the reference's own
  quantized weights and biases: the two `dot_general`s are the two sums (over the 768 input features, then over the 3072
  hidden units), the broadcasts of the bias vectors read the bias at the unit's own coordinate, and the final `relu` is the
  maximum with zero. The quantized tensors themselves are the straight-through quantization `quantSte` of the arguments.
-/
import proofs.«156163_j57432302682876_2_alg».proof.Proof.Gen.ReferenceIdeal.Read
import proofs.«156163_j57432302682876_2_alg».proof.Proof.Spec

noncomputable section

namespace Cert.ReferenceIdeal.Hand

open Cert.ReferenceIdeal Cert.ReferenceIdeal.Gen Cert.ReferenceIdeal.Read Cert.Quant Idealize.ShloMosaic Idealize.ShloMosaic.TcCoe
open Idealize.SL.Sem Idealize.ShloMosaic.ValueIdx

variable (x0 : FVec Ideal S64x196x768 .f32) (x1 : FVec Ideal S3072x768 .f32) (x2 : FVec Ideal S3072 .f32)
  (x3 : FVec Ideal S768x3072 .f32) (x4 : FVec Ideal S768 .f32) (x5 : FVec Ideal S1 .f32)

/-- The reference's first result at an index is the network's entry over the reference's quantized tensors. -/
theorem out_apply (i : S64x196x768.Idx) :
    val_main_v42 (F := Ideal) x0 x1 x2 x3 x4 x5 i
      = mlpAt x0 (val_main_v9 (F := Ideal) x1) (val_main_v16 (F := Ideal) x1 x2 x5) (val_main_v30 (F := Ideal) x3)
          (val_main_v37 (F := Ideal) x1 x3 x4 x5) (i 0) (i 1) (i 2) := by
  rw [val_main_v42_apply, val_main_v41_apply, val_main_v38_apply, val_main_v40_apply, val_main_v39_apply,
    val_main_call8_v0_apply, val_main_call8_cst_apply]
  unfold mlpAt
  refine congrArg₂ max (congrArg₂ (· + ·) (Finset.sum_congr rfl fun j _ => ?_) ?_) rfl
  · rw [val_main_v20_apply, val_main_v17_apply, val_main_v19_apply, val_main_v18_apply]
    refine congrArg₂ (· * ·) (congrArg₂ (· + ·) (Finset.sum_congr rfl fun d _ => ?_) ?_) ?_
    · refine congrArg₂ (· * ·) (congrArg x0 (funext fun a => ?_)) (congrArg _ (funext fun a => ?_))
      · match a with
        | ⟨0, _⟩ => rfl
        | ⟨1, _⟩ => rfl
        | ⟨2, _⟩ => rfl
      · match a with
        | ⟨0, _⟩ => rfl
        | ⟨1, _⟩ => rfl
    · exact congrArg _ (funext fun a => by match a with | ⟨0, _⟩ => rfl)
    · exact congrArg _ (funext fun a => by match a with | ⟨0, _⟩ => rfl | ⟨1, _⟩ => rfl)
  · exact congrArg _ (funext fun a => by match a with | ⟨0, _⟩ => rfl)

/-- The reference's first-layer weights: `w1` quantized straight through against `max|w1|/127`. -/
theorem w1_eq : val_main_v9 (F := Ideal) x1
    = quantSte bcast_S_S3072x768 0xC2FE0000#32 0x42FE0000#32 x1 (scale x1 reducesTo_S3072x768_S_d0_1 h_S_) := rfl

/-- The reference's first-layer bias: `b1` quantized straight through against `scale(w1)·a_s`. -/
theorem b1_eq : val_main_v16 (F := Ideal) x1 x2 x5
    = quantSte bcast_S_S3072 0xCF000000#32 0x4F000000#32 x2
        (mulf (scale x1 reducesTo_S3072x768_S_d0_1 h_S_) (shapeCast S_ x5 shapeCasts_S1_S_)) := rfl

/-- The reference's second-layer weights. -/
theorem w2_eq : val_main_v30 (F := Ideal) x3
    = quantSte bcast_S_S768x3072 0xC2FE0000#32 0x42FE0000#32 x3 (scale x3 reducesTo_S768x3072_S_d0_1 h_S_) := rfl

/-- The reference's second-layer bias: `b2` quantized straight through against `scale(w2)·(a_s·scale(w1))`. -/
theorem b2_eq : val_main_v37 (F := Ideal) x1 x3 x4 x5
    = quantSte bcast_S_S768 0xCF000000#32 0x4F000000#32 x4
        (mulf (scale x3 reducesTo_S768x3072_S_d0_1 h_S_)
          (mulf (shapeCast S_ x5 shapeCasts_S1_S_) (scale x1 reducesTo_S3072x768_S_d0_1 h_S_))) := rfl

/-- The reference's second result: the product of the three scales. -/
theorem s_eq : val_main_v43 (F := Ideal) x1 x3 x5
    = mulf (mulf (shapeCast S_ x5 shapeCasts_S1_S_) (scale x1 reducesTo_S3072x768_S_d0_1 h_S_))
        (scale x3 reducesTo_S768x3072_S_d0_1 h_S_) := rfl

end Cert.ReferenceIdeal.Hand

end
-- ==== Proof.Domain.lean ====
/-
  What the precondition says of the argument arrays, in plain terms.

  The precondition is a conjunction: every entry `x` of every argument has `|x| < +∞`, so it is a real number; the activation
  scale `a_s` is nonzero; and `max|w1|` and `max|w2|` — the very maxima the two programs divide by 127 to get their weight
  scales — are nonzero. These are the facts under which the reference's divisors are nonzero.
-/
import proofs.«156163_j57432302682876_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Domain

open Idealize.ShloMosaic Idealize.ShloMosaic.ValueIdx Cert.Pre_finite_inputs

instance : Subsingleton S_.Idx := ⟨fun _ _ => funext fun d => d.elim0⟩

/-- The pattern of `+∞`. -/
theorem ofBits_inf : Ideal.ofBits .f32 0x7F800000#32 = (⊤ : EReal) := by
  simp [Ideal.ofBits, Ideal.ieee]

/-- A comparison `<` that answers 1 holds. -/
theorem lt_of_cmp {a b : EReal} (h : Ideal.cmp .olt a b = 1#1) : a < b := by
  by_contra hn
  simp [Ideal.cmp, hn] at h

/-- A comparison `≠` that answers 1 holds. -/
theorem ne_of_cmp {a b : EReal} (h : Ideal.cmp .une a b = 1#1) : a ≠ b := by
  intro hn
  simp [Ideal.cmp, hn] at h

/-- A comparison `≠` against the zero pattern that answers 1 says the number is nonzero. -/
theorem ne_zero_of_cmp {a z : EReal} (hz : z = 0) (h : Ideal.cmp .une a z = 1#1) : a ≠ 0 := hz ▸ ne_of_cmp h

/-- The same, for the comparison as the programs print it. -/
theorem ne_zero_of_cmpf {a : EReal}
    (h : FloatOps.cmpf (F := Ideal) (φ := .f32) .une a (Ideal.ofBits .f32 0x00000000#32) = 1#1) : a ≠ 0 :=
  ne_zero_of_cmp Ideal.ofBits_zero_f32 h

/-- An extended real of magnitude below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Every entry of a tensor that passes `all(|x| < +∞)` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) := by
  have hi : Ideal.cmp .olt (max (x i) (-(x i))) (Ideal.ofBits .f32 0x7F800000#32) = 1#1 :=
    Host.reduce_andi_all _ _ hr hu ix0 h i
  rw [ofBits_inf] at hi
  exact real_of_abs_lt_top (x i) (lt_of_cmp hi)

/-- The facts the precondition gives: real weights and biases, a nonzero activation scale, nonzero weight maxima. -/
structure Dom (x1 : FVec Ideal S3072x768 .f32) (x2 : FVec Ideal S3072 .f32) (x3 : FVec Ideal S768x3072 .f32)
    (x4 : FVec Ideal S768 .f32) (x5 : FVec Ideal S1 .f32) : Prop where
  w1 : ∀ i, ∃ r : ℝ, x1 i = (r : EReal)
  b1 : ∀ i, ∃ r : ℝ, x2 i = (r : EReal)
  w2 : ∀ i, ∃ r : ℝ, x3 i = (r : EReal)
  b2 : ∀ i, ∃ r : ℝ, x4 i = (r : EReal)
  a_ne : ∀ i, x5 i ≠ 0
  m1_ne : ∀ (hr : S3072x768.ReducesTo [0, 1] S_) (hu : 0 < S_.numel),
    Host.reduce FloatOps.maximumf (Host.absf x1) (constant (F := Ideal) S_ .f32 0xFF800000#32) hr hu ix0 ≠ 0
  m2_ne : ∀ (hr : S768x3072.ReducesTo [0, 1] S_) (hu : 0 < S_.numel),
    Host.reduce FloatOps.maximumf (Host.absf x3) (constant (F := Ideal) S_ .f32 0xFF800000#32) hr hu ix0 ≠ 0

variable [Cert.Pre_finite_inputs.Facts]

/-- The precondition, read. -/
theorem dom_of_pre (x0 : FVec Ideal S64x196x768 .f32) (x1 : FVec Ideal S3072x768 .f32) (x2 : FVec Ideal S3072 .f32)
    (x3 : FVec Ideal S768x3072 .f32) (x4 : FVec Ideal S768 .f32) (x5 : FVec Ideal S1 .f32)
    (h : Cert.Pre_finite_inputs.fn (F := Ideal) x0 x1 x2 x3 x4 x5 = fun _ => 1#1) : Dom x1 x2 x3 x4 x5 := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨_, hw1⟩, hb1⟩, hw2⟩, hb2⟩, _⟩, hnz⟩, hm1⟩, hm2⟩ := h0
  refine ⟨real_of_all x1 _ _ _ hw1, real_of_all x2 _ _ _ hb1, real_of_all x3 _ _ _ hw2, real_of_all x4 _ _ _ hb2,
    fun i => ?_, fun hr hu => ?_, fun hr hu => ?_⟩
  · exact ne_zero_of_cmp Ideal.ofBits_zero_f32 (Host.reduce_andi_all _ _ _ _ ix0 hnz i)
  · rw [cmpf_apply, constant_apply] at hm1
    exact ne_zero_of_cmpf hm1
  · rw [cmpf_apply, constant_apply] at hm2
    exact ne_zero_of_cmpf hm2

end Cert.Domain

end
-- ==== Proof.Scales.lean ====
/-
  The divisors of the four quantizations are nonzero when the activation scale and the two weight maxima are.

  A weight scale is `max|w| / 127`: nonzero when the maximum is, since 127 is a nonzero real. The bias divisors are products
  of the scales and the activation scale, and the extended reals have no zero divisors.
-/
import proofs.«156163_j57432302682876_2_alg».proof.Proof.Spec

noncomputable section

namespace Cert.Quant

open Idealize.ShloMosaic Idealize.ShloMosaic.ValueIdx

/-- The pattern of 127. -/
theorem ofBits_127 : Ideal.ofBits .f32 0x42FE0000#32 = ((127 : ℝ) : EReal) := by
  simp [Ideal.ofBits, Ideal.ieee, -EReal.coe_mul]; norm_num

/-- The host's quotient of two tensors, read at an index. -/
theorem hostDivf_apply {s : Shape} {φ : FTy} (a b : FVec Ideal s φ) (i : s.Idx) :
    Host.divf a b i = Ideal.div (a i) (b i) := rfl

/-- A weight scale is nonzero when the maximum it divides is. -/
theorem scale_ne {s : Shape} {axes : List (Fin s.rank)} (w : FVec Ideal s .f32) (hr : s.ReducesTo axes S0)
    (hu : 0 < S0.numel)
    (hM : Host.reduce FloatOps.maximumf (Host.absf w) (constant (F := Ideal) S0 .f32 0xFF800000#32) hr hu ix0 ≠ 0) :
    scale w hr hu ix0 ≠ 0 := by
  unfold scale
  rw [hostDivf_apply, constant_apply, ofBits_127]
  exact div_coe_ne_zero hM (by norm_num)

/-- A one-entry vector read as a scalar is nonzero when its entry is. -/
theorem scalar_ne {s : Shape} (x : FVec Ideal s .f32) (h : s.ShapeCasts S0) (hx : ∀ i, x i ≠ 0) :
    shapeCast S0 x h ix0 ≠ 0 := by
  unfold shapeCast
  exact hx _

/-- A product of two nonzero scalars is nonzero. -/
theorem mulf_ne (a b : FVec Ideal S0 .f32) (ha : a ix0 ≠ 0) (hb : b ix0 ≠ 0) : mulf a b ix0 ≠ 0 := by
  rw [mulf_apply]
  exact mul_ne_zero ha hb

end Cert.Quant

end
-- ==== Proof.Bridge.lean ====
/-
  The two programs compute one function.

  Entry by entry both first results are the network's entry `mlpAt` of the same input and of a quantized copy of the weights
  and biases: the kernel's copy rounds each quotient, the reference's rounds it straight through. Under the precondition the
  weights and biases are real and every divisor — a weight scale `max|w|/127`, or a product of the scales with the activation
  scale — is nonzero, so the two copies are equal (`quantSte_eq`), and so are the results. The second results are the same
  product of the three scales, with no hypothesis.
-/
import proofs.«156163_j57432302682876_2_alg».proof.Proof.KerRun
import proofs.«156163_j57432302682876_2_alg».proof.Proof.RefRead
import proofs.«156163_j57432302682876_2_alg».proof.Proof.Domain
import proofs.«156163_j57432302682876_2_alg».proof.Proof.Scales

noncomputable section

namespace Cert.Bridge

open Cert.Quant Cert.Domain Idealize.ShloMosaic Idealize.ShloMosaic.TcCoe Idealize.SL.Sem Idealize.ShloMosaic.ValueIdx
open Cert.KernelIdeal Cert.KernelIdeal.Hand

variable (m : (ℓ : Loc nD τ sig) → Buf (Elt Ideal) ℓ)

/-- Under the precondition's facts, the reference's first result of the kernel's arguments is the kernel's first result. -/
theorem out_eq (c : Dev nD)
    (hd : Dom (m ((c : Thread nD τ).loc main_arg1)) (m ((c : Thread nD τ).loc main_arg2)) (m ((c : Thread nD τ).loc main_arg3))
      (m ((c : Thread nD τ).loc main_arg4)) (m ((c : Thread nD τ).loc main_arg5))) :
    Cert.ReferenceIdeal.Read.val_main_v42 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = kerOut m c := by
  have h1 : ws1 m c ix0 ≠ 0 := scale_ne _ _ _ (hd.m1_ne _ _)
  have h2 : ws2 m c ix0 ≠ 0 := scale_ne _ _ _ (hd.m2_ne _ _)
  have ha : as0 m c ix0 ≠ 0 := scalar_ne _ _ hd.a_ne
  funext i
  rw [Cert.ReferenceIdeal.Hand.out_apply, kerOut_apply, Cert.ReferenceIdeal.Hand.w1_eq, Cert.ReferenceIdeal.Hand.b1_eq,
    Cert.ReferenceIdeal.Hand.w2_eq, Cert.ReferenceIdeal.Hand.b2_eq,
    quantSte_eq _ _ _ _ _ hd.w1 h1, quantSte_eq _ _ _ _ _ hd.b1 (mulf_ne _ _ h1 ha),
    quantSte_eq _ _ _ _ _ hd.w2 h2, quantSte_eq _ _ _ _ _ hd.b2 (mulf_ne _ _ h2 (mulf_ne _ _ ha h1))]

/-- The reference's second result of the kernel's arguments is the kernel's second result. -/
theorem s_eq (c : Dev nD) :
    Cert.ReferenceIdeal.Read.val_main_v43 (F := Ideal) (m ((c : Thread nD τ).loc main_arg1)) (m ((c : Thread nD τ).loc main_arg3))
      (m ((c : Thread nD τ).loc main_arg5)) = kerS m c := rfl

end Cert.Bridge

end
-- ==== Proof.lean ====
/-
  The certificate of a fused quantized two-layer perceptron against its jnp reference, over the extended reals.

  Both programs quantize the weights `w1`, `w2` against their per-tensor scales `max|w|/127` (rounded, clamped to ±127) and
  the biases `b1`, `b2` against products of those scales with the activation scale `a_s` (rounded, clamped to ±2³¹), then
  compute `max ((x·W1ᵀ + B1)·W2ᵀ + B2) 0` and return it with the product of the three scales. The kernel flattens `x` to
  12544 rows, runs both products for 784 rows per grid point, and re-folds the result; the reference contracts the 3-axis
  input directly. The one arithmetic difference is the reference's straight-through rounding `v + (round v - v)`, which is
  `round v` whenever `v` is finite: it is, for real weights and biases over nonzero divisors, which is what the precondition
  provides. The frames of the two kernels are the generated ones; the reference's frame is its generated run with the results
  dropped; the idealization rewrote nothing.
-/
import proofs.«156163_j57432302682876_2_alg».proof.Defs
import proofs.«156163_j57432302682876_2_alg».proof.Proof.Gen.Kernel
import proofs.«156163_j57432302682876_2_alg».proof.Proof.Gen.Kernel.Skeleton
import proofs.«156163_j57432302682876_2_alg».proof.Proof.Gen.Kernel.Launch
import proofs.«156163_j57432302682876_2_alg».proof.Proof.Gen.Kernel.Points
import proofs.«156163_j57432302682876_2_alg».proof.Proof.Gen.Kernel.Frame
import proofs.«156163_j57432302682876_2_alg».proof.Proof.Gen.KernelIdeal
import proofs.«156163_j57432302682876_2_alg».proof.Proof.Gen.KernelIdeal.Skeleton
import proofs.«156163_j57432302682876_2_alg».proof.Proof.Gen.KernelIdeal.Launch
import proofs.«156163_j57432302682876_2_alg».proof.Proof.Gen.KernelIdeal.Points
import proofs.«156163_j57432302682876_2_alg».proof.Proof.Gen.KernelIdeal.Frame
import proofs.«156163_j57432302682876_2_alg».proof.Proof.Gen.ReferenceIdeal
import proofs.«156163_j57432302682876_2_alg».proof.Proof.Gen.ReferenceIdeal.Run
import proofs.«156163_j57432302682876_2_alg».proof.Proof.Gen.ReferenceIdeal.Read
import proofs.«156163_j57432302682876_2_alg».proof.Proof.Gen.Pre_finite_inputs
import proofs.«156163_j57432302682876_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the kernel's two results: the reference's results are
    the kernel's by `Bridge.out_eq` (under the precondition) and `Bridge.s_eq`. -/
theorem algebraic : Cert.algebraic_KernelIdeal_ReferenceIdeal := by
  intro m ρ m' ρ' hpre hagree
  refine ⟨fun c => Cert.KernelIdeal.Hand.kerOut m c, fun c => Cert.KernelIdeal.Hand.kerS m c,
    Cert.KernelIdeal.Hand.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v42_eq, (hagree c).1, (hagree c).2.1, (hagree c).2.2.1, (hagree c).2.2.2.1,
      (hagree c).2.2.2.2.1, (hagree c).2.2.2.2.2]
    exact Cert.Bridge.out_eq m c (Cert.Domain.dom_of_pre _ _ _ _ _ _ (hpre c))
  · rw [(h c).2.1, Cert.ReferenceIdeal.Read.val_main_v43_eq, (hagree c).2.1, (hagree c).2.2.2.1, (hagree c).2.2.2.2.2]
    exact Cert.Bridge.s_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
